-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v1) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_v5) = v2 c
          ∧ r.2.mem ((c.tc : Thread Cert.ReferenceIdeal.nD Cert.ReferenceIdeal.τ).loc Cert.ReferenceIdeal.main_v7) = v3 c
          ∧ r.2.mem ((c.tc : Thread Cert.ReferenceIdeal.nD Cert.ReferenceIdeal.τ).loc Cert.ReferenceIdeal.main_v8) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel

variable [Facts]

def fn {F : FTy → Type} [FloatOps F] (main_arg0 : FVec F S4096x8192 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  main_v3
-- ==== Kernel.lean ====
abbrev S4096x8192 : Shape := ⟨2, ![4096, 8192]⟩
abbrev S1x8192 : Shape := ⟨2, ![1, 8192]⟩
abbrev S512x1024 : Shape := ⟨2, ![512, 1024]⟩
abbrev S1x1024 : Shape := ⟨2, ![1, 1024]⟩
abbrev S1024 : Shape := ⟨1, ![1024]⟩
abbrev S_ : Shape := ⟨0, ![]⟩

abbrev nBuf : Space → Nat
  | .hbm => 8
  | .vmem => 13
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | .hbm, ⟨2, _⟩ => ⟨S4096x8192, .f32⟩
  | .hbm, ⟨3, _⟩ => ⟨S4096x8192, .f32⟩
  | .hbm, ⟨4, _⟩ => ⟨S4096x8192, .f32⟩
  | .hbm, ⟨5, _⟩ => ⟨S1x8192, .f32⟩
  | .hbm, ⟨6, _⟩ => ⟨S_, .f32⟩
  | .hbm, ⟨7, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev main_v0_4 : Ref sig .tc := ⟨.hbm, 5, rfl⟩
abbrev main_cst : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v23 : BitVec 1 := Scalar.cmpi .eq arg1 c7_i32
  let v24 : BitVec 32 := Scalar.extui v23
  let c0_i32_18 : BitVec 32 := 0#32
  let v25 : BitVec 1 := Scalar.cmpi .ne v24 c0_i32_18
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S512x1024_S512x1024_0_0 : ∀ a, (![0, 0] : Fin 2 → Nat) a + S512x1024.size a ≤ S512x1024.size a
  h_S512x1024 : 0 < S512x1024.numel
  reduces_S512x1024_S1024 : S512x1024.Reduces [0] S1024
  shapeCasts_S1024_S1x1024 : S1024.ShapeCasts S1x1024
  reducesTo_S1x8192_S_d0_1 : S1x8192.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x8192.size a
  hwx0_0 : ∀ i : grid0.Coords, EltTy.bits .f32 = 32 ∨ (Rect.block (s := S4096x8192) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x8192.size a
  hwx0_1 : ∀ i : grid0.Coords, EltTy.bits .f32 = 32 ∨ (Rect.block (s := S4096x8192) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x8192.size a
  hwx0_2 : ∀ i : grid0.Coords, EltTy.bits .f32 = 32 ∨ (Rect.block (s := S4096x8192) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x8192.size a
  hwx0_3 : ∀ i : grid0.Coords, EltTy.bits .f32 = 32 ∨ (Rect.block (s := S4096x8192) S512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S4096x8192.size a
  hwx0_4 : ∀ i : grid0.Coords, EltTy.bits .f32 = 32 ∨ (Rect.block (s := S4096x8192) S512x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x8192.size a
  hwx0_5 : ∀ i : grid0.Coords, EltTy.bits .f32 = 32 ∨ (Rect.block (s := S1x8192) S1x1024.size (cc0_transform_5 i) (hinb0_5 i)).WholeWords (EltTy.packing .f32)

variable [Facts₀]

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S512x1024.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S512x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_2) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_3) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_4) S1x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4096x8192 : Shape := ⟨2, ![4096, 8192]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S_, .f32⟩
  | .hbm, ⟨2, _⟩ => ⟨S4096x8192, .f32⟩
  | .hbm, ⟨3, _⟩ => ⟨S4096x8192, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S_, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_v5 : Ref sig .tc := ⟨.hbm, 9, rfl⟩
abbrev main_cst_2 : Ref sig .tc := ⟨.hbm, 10, rfl⟩
abbrev main_v6 : Ref sig .tc := ⟨.hbm, 11, rfl⟩
abbrev main_v7 : Ref sig .tc := ⟨.hbm, 12, rfl⟩
abbrev main_cst_3 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel

variable [Facts₀]

class Facts : Prop extends Facts₀ where

variable [Facts]
-- ==== Proof.Spec.lean ====
/-
  The five results as functions of the argument array x, a 4096 x 8192 array of extended reals, and the laws of
  sums that join the two ways of adding x up.

  Four results are pointwise: x + 1, x - 1, x * 2 and x * (1/2), each constant kept as the float word both programs
  spell. The fifth is the sum of every entry of x, started from the float zero.

  One program adds x up in one sweep over all index pairs. The other adds it up column by column: a column's total is
  built from eight consecutive bands of 512 rows, band after band, and the 8192 column totals are then added. In a
  commutative monoid these are the same number: a sum over index pairs is the iterated sum over rows and columns, the
  two iterated sums commute, and a sum over the first n + k rows splits into the first n rows and the next k. No entry
  need be finite for any of this: addition of extended reals is commutative and associative with the infinities in.
-/
import Idealize.ShloMosaic.PureOps.Ideal
import Idealize.ShloMosaic.PureOps.Ideal.Laws
import Idealize.ShloMosaic.Lib.ValueIdx

noncomputable section

open scoped BigOperators

namespace Cert.Bridge

open Idealize.ShloMosaic Idealize.ShloMosaic.ValueIdx

/-- The argument's shape, -/
abbrev Big : Shape := ⟨2, ![4096, 8192]⟩
/-- the shape of the row of column totals, -/
abbrev Row : Shape := ⟨2, ![1, 8192]⟩
/-- and the shape of a scalar. -/
abbrev Pt : Shape := ⟨0, ![]⟩

/-! ## The results -/

/-- x + 1. -/
def plusOne (x : FVec Ideal Big .f32) : FVec Ideal Big .f32 := fun i => x i + Ideal.ofBits .f32 0x3F800000#32
/-- x - 1. -/
def minusOne (x : FVec Ideal Big .f32) : FVec Ideal Big .f32 := fun i => x i - Ideal.ofBits .f32 0x3F800000#32
/-- x * 2. -/
def doubled (x : FVec Ideal Big .f32) : FVec Ideal Big .f32 := fun i => x i * Ideal.ofBits .f32 0x40000000#32
/-- x * (1/2). -/
def halved (x : FVec Ideal Big .f32) : FVec Ideal Big .f32 := fun i => x i * Ideal.ofBits .f32 0x3F000000#32

/-- The total of column c. -/
def colTotal (x : FVec Ideal Big .f32) (c : Fin 8192) : EReal := ∑ R : Fin 4096, x (ix2 R c)

/-- The row of column totals. -/
def colTotals (x : FVec Ideal Big .f32) : FVec Ideal Row .f32 := fun k => colTotal x (k 1)

/-- The sum of every entry, from the float zero. -/
def total (x : FVec Ideal Big .f32) : FVec Ideal Pt .f32 :=
  fun _ => Ideal.ofBits .f32 0x00000000#32 + ∑ i : Big.Idx, x i

/-! ## A column added up band by band -/

/-- Row R of column c, counted as nothing when R is past the last row. -/
def entryOrZero (x : FVec Ideal Big .f32) (c : Fin 8192) (R : ℕ) : EReal :=
  if h : R < 4096 then x (ix2 ⟨R, h⟩ c) else 0

/-- The sum of the first n rows of column c. -/
def firstRows (x : FVec Ideal Big .f32) (c : Fin 8192) (n : ℕ) : EReal :=
  ∑ R ∈ Finset.range n, entryOrZero x c R

/-- No rows add up to zero. -/
theorem firstRows_zero (x : FVec Ideal Big .f32) (c : Fin 8192) : firstRows x c 0 = 0 := by
  unfold firstRows; simp

/-- The first n + k rows are the first n and then the next k. -/
theorem firstRows_add (x : FVec Ideal Big .f32) (c : Fin 8192) (n k : ℕ) :
    firstRows x c (n + k) = firstRows x c n + ∑ r : Fin k, entryOrZero x c (n + r.val) := by
  unfold firstRows
  rw [Finset.sum_range_add, Finset.sum_range (fun r => entryOrZero x c (n + r))]

/-- All 4096 rows of a column add up to the column's total. -/
theorem firstRows_all (x : FVec Ideal Big .f32) (c : Fin 8192) : firstRows x c 4096 = colTotal x c := by
  unfold firstRows colTotal
  rw [Finset.sum_range]
  exact Finset.sum_congr rfl fun R _ => by unfold entryOrZero; rw [dif_pos R.isLt]

/-! ## The column totals add up to the sum of every entry -/

/-- The sum of the 8192 column totals, from the float zero, is the sum of every entry from the float zero. -/
theorem zero_add_sum_colTotals (x : FVec Ideal Big .f32) :
    Ideal.ofBits .f32 0x00000000#32 + ∑ k : Row.Idx, colTotals x k = total x ix0 := by
  unfold total colTotals colTotal
  rw [sum_idx2 (n0 := 1) (n1 := 8192), sum_idx2 (n0 := 4096) (n1 := 8192), Fin.sum_univ_one, Finset.sum_comm]

end Cert.Bridge

end
-- ==== Proof.Halves.lean ====
/-
  Halving on the extended reals. The float words of 2.0 and 0.5 denote the reals 2 and 1/2, and the quotient of
  any extended real by 2 is its product with 1/2: for a finite value this is arithmetic in the reals, and at an
  infinity both sides are that same infinity, because the quotient by a nonzero real is by definition the product
  with its inverse.
-/
import Idealize.ShloMosaic.PureOps.Ideal

noncomputable section

namespace Cert.Bridge

open Idealize.ShloMosaic

/-- The word of 2.0 denotes the real number 2. -/
theorem word_two : Ideal.ofBits .f32 0x40000000#32 = ((2 : ℝ) : EReal) := by
  simp [Ideal.ofBits, Ideal.ieee, -EReal.coe_mul]; norm_num

/-- The word of 0.5 denotes the real number 1/2. -/
theorem word_half : Ideal.ofBits .f32 0x3F000000#32 = ((1 / 2 : ℝ) : EReal) := by
  simp [Ideal.ofBits, Ideal.ieee, -EReal.coe_mul]; norm_num

/-- Dividing by the word 2.0 is multiplying by the word 0.5, on every extended real. -/
theorem div_two_eq_mul_half (a : EReal) :
    Ideal.div a (Ideal.ofBits .f32 0x40000000#32) = a * Ideal.ofBits .f32 0x3F000000#32 := by
  rw [word_two, word_half, Ideal.div_coe (by norm_num : (2 : ℝ) ≠ 0)]

end Cert.Bridge

end
-- ==== Proof.RefValue.lean ====
/-
  The reference's five results are the specification's functions of its argument: each stage read at an index is
  the entry plus, minus or times the float word it spells; its quotient by the word 2.0 is the product with the word
  0.5 on every extended real; and its sum over both axes from the float zero is that zero plus the sum over every
  index pair.
-/
import proofs.«163350_j73667279061090_2_alg».proof.Proof.Gen.ReferenceIdeal.Read
import proofs.«163350_j73667279061090_2_alg».proof.Proof.Spec
import proofs.«163350_j73667279061090_2_alg».proof.Proof.Halves

noncomputable section

namespace Cert.ReferenceIdeal.RefValue

open Cert.ReferenceIdeal Cert.ReferenceIdeal.Gen Cert.ReferenceIdeal.Read Cert.Bridge
open Idealize.ShloMosaic Idealize.ShloMosaic.ValueIdx

/-- The sum with the broadcast word 1.0 is x + 1. -/
theorem plusOne_eq (x : (⟨S4096x8192, .f32⟩ : BufTy).Contents (Elt Ideal)) : val_main_v1 (F := Ideal) x = plusOne x := by
  funext i
  rw [val_main_v1_apply, val_main_v0_apply, val_main_cst_apply]
  rfl

/-- The difference with the broadcast word 1.0 is x - 1. -/
theorem minusOne_eq (x : (⟨S4096x8192, .f32⟩ : BufTy).Contents (Elt Ideal)) : val_main_v3 (F := Ideal) x = minusOne x := by
  funext i
  rw [val_main_v3_apply, val_main_v2_apply, val_main_cst_0_apply]
  rfl

/-- The product with the broadcast word 2.0 is x * 2. -/
theorem doubled_eq (x : (⟨S4096x8192, .f32⟩ : BufTy).Contents (Elt Ideal)) : val_main_v5 (F := Ideal) x = doubled x := by
  funext i
  rw [val_main_v5_apply, val_main_v4_apply, val_main_cst_1_apply]
  rfl

/-- The quotient by the broadcast word 2.0 is x * (1/2). -/
theorem halved_eq (x : (⟨S4096x8192, .f32⟩ : BufTy).Contents (Elt Ideal)) : val_main_v7 (F := Ideal) x = halved x := by
  funext i
  rw [val_main_v7_apply, val_main_v6_apply, val_main_cst_2_apply]
  exact div_two_eq_mul_half (x i)

/-- The sum over both axes from the float zero is the specification's total. -/
theorem total_eq (x : (⟨S4096x8192, .f32⟩ : BufTy).Contents (Elt Ideal)) : val_main_v8 (F := Ideal) x = total x := by
  funext i
  rw [val_main_v8_apply, val_main_cst_3_apply]
  rfl

end Cert.ReferenceIdeal.RefValue

end
-- ==== Proof.Body.lean ====
/-
  What one run of the body leaves in each staging buffer, as a function of the block x it loaded and of the row a the
  accumulator held on entry.

  There are three kinds of grid point: the first row band of a column tile (the accumulator is reset to zero first),
  a middle band, and the last band (the accumulator is copied out to the fifth output afterwards). At every point the
  four pointwise outputs are one whole-buffer store each of their payload of x. The accumulator ends at its payload of
  x and of what it held: the zero row at a first band, the carried row a otherwise. At a last band the fifth output is
  the accumulator's final contents, read back and stored. Every load and store goes through the whole buffer, so a
  store leaves exactly its payload and a load reads exactly the contents.
-/
import proofs.«163350_j73667279061090_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Body

open Cert.KernelIdeal Cert.KernelIdeal.Gen

variable {F : FTy → Type} [FloatOps F]

/-- The zero offsets of a rank-2 buffer, however spelt. -/
theorem zeroOffsets : (![0, 0] : Fin 2 → Nat) = fun _ => 0 := funext fun a => by fin_cases a <;> rfl

variable (c : Dev nD) (i : grid0.Coords) (a2 : Memref sig .tc .vmem S512x1024 .f32) (h2 : a2.IsWhole) (a3 : Memref sig .tc .vmem S512x1024 .f32) (h3 : a3.IsWhole)
  (a4 : Memref sig .tc .vmem S512x1024 .f32) (h4 : a4.IsWhole) (a5 : Memref sig .tc .vmem S512x1024 .f32) (h5 : a5.IsWhole)
  (a6 : Memref sig .tc .vmem S512x1024 .f32) (h6 : a6.IsWhole) (a7 : Memref sig .tc .vmem S1x1024 .f32) (h7 : a7.IsWhole)
  (a8 : Memref sig .tc .vmem S1x1024 .f32) (h8 : a8.IsWhole)

/-! ## At the first row band of a column tile -/

/-- At the first row band of a column tile, output 1 ends at the sum with 1 of the loaded block. -/
theorem out_A_1 (hc0 : cond0_0 i) (hc1 : ¬cond0_1 i) (x0 : Vec F S512x1024 .f32) :
    out0_A_1 c i a2 h2 a3 h3 a4 h4 a5 h5 a6 h6 a7 h7 a8 h8 hc0 hc1 x0 = k0_pay2 x0 := by
  unfold out0_A_1
  rw [View.read_writes_eq_canon _ _ _ (cover0_A_1 c i a2 h2 a3 h3 a4 h4 a5 h5 a6 h6 a7 h7 a8 h8 hc0 hc1 x0)]
  unfold kernelRun0_A
  dsimp only
  rw [View.canon_unit_zero zeroOffsets]
  simp only [View.readAt_eq_ld, h2.read_unread, View.ld_unit_zero (S := S512x1024) zeroOffsets]

/-- At the first row band of a column tile, output 2 ends at the difference with 1 of the loaded block. -/
theorem out_A_2 (hc0 : cond0_0 i) (hc1 : ¬cond0_1 i) (x0 : Vec F S512x1024 .f32) :
    out0_A_2 c i a2 h2 a3 h3 a4 h4 a5 h5 a6 h6 a7 h7 a8 h8 hc0 hc1 x0 = k0_pay3 x0 := by
  unfold out0_A_2
  rw [View.read_writes_eq_canon _ _ _ (cover0_A_2 c i a2 h2 a3 h3 a4 h4 a5 h5 a6 h6 a7 h7 a8 h8 hc0 hc1 x0)]
  unfold kernelRun0_A
  dsimp only
  rw [View.canon_unit_zero zeroOffsets]
  simp only [View.readAt_eq_ld, h2.read_unread, View.ld_unit_zero (S := S512x1024) zeroOffsets]

/-- At the first row band of a column tile, output 3 ends at the product with 2 of the loaded block. -/
theorem out_A_3 (hc0 : cond0_0 i) (hc1 : ¬cond0_1 i) (x0 : Vec F S512x1024 .f32) :
    out0_A_3 c i a2 h2 a3 h3 a4 h4 a5 h5 a6 h6 a7 h7 a8 h8 hc0 hc1 x0 = k0_pay4 x0 := by
  unfold out0_A_3
  rw [View.read_writes_eq_canon _ _ _ (cover0_A_3 c i a2 h2 a3 h3 a4 h4 a5 h5 a6 h6 a7 h7 a8 h8 hc0 hc1 x0)]
  unfold kernelRun0_A
  dsimp only
  rw [View.canon_unit_zero zeroOffsets]
  simp only [View.readAt_eq_ld, h2.read_unread, View.ld_unit_zero (S := S512x1024) zeroOffsets]

/-- At the first row band of a column tile, output 4 ends at the product with 1/2 of the loaded block. -/
theorem out_A_4 (hc0 : cond0_0 i) (hc1 : ¬cond0_1 i) (x0 : Vec F S512x1024 .f32) :
    out0_A_4 c i a2 h2 a3 h3 a4 h4 a5 h5 a6 h6 a7 h7 a8 h8 hc0 hc1 x0 = k0_pay5 x0 := by
  unfold out0_A_4
  rw [View.read_writes_eq_canon _ _ _ (cover0_A_4 c i a2 h2 a3 h3 a4 h4 a5 h5 a6 h6 a7 h7 a8 h8 hc0 hc1 x0)]
  unfold kernelRun0_A
  dsimp only
  rw [View.canon_unit_zero zeroOffsets]
  simp only [View.readAt_eq_ld, h2.read_unread, View.ld_unit_zero (S := S512x1024) zeroOffsets]

/-- At the first row band the accumulator, zeroed and read back, ends at its payload of the block and the zero row. -/
theorem acc_A (hc0 : cond0_0 i) (hc1 : ¬cond0_1 i) (x0 : Vec F S512x1024 .f32) :
    sout0_A_0 c i a2 h2 a3 h3 a4 h4 a5 h5 a6 h6 a7 h7 a8 h8 hc0 hc1 x0 = k0_pay6 x0 k0_pay1 := by
  unfold sout0_A_0
  rw [View.read_writes_eq_canon _ _ _ (scover0_A_0 c i a2 h2 a3 h3 a4 h4 a5 h5 a6 h6 a7 h7 a8 h8 hc0 hc1 x0)]
  unfold kernelRun0_A
  dsimp only
  sl_unfold_words
  rw [View.canon_cons_unit_zero (S := S1x1024) zeroOffsets, View.readCov_unit_zero (S := S1x1024) _ zeroOffsets]
  simp only [View.readAt_eq_ld, h2.read_unread, View.ld_unit_zero (S := S512x1024) zeroOffsets]

/-! ## At a middle row band -/

/-- At a middle row band, output 1 ends at the sum with 1 of the loaded block. -/
theorem out_B_1 (hc0 : ¬cond0_0 i) (hc1 : ¬cond0_1 i) (x0 : Vec F S512x1024 .f32) (xs0 : Vec F S1x1024 .f32) :
    out0_B_1 c i a2 h2 a3 h3 a4 h4 a5 h5 a6 h6 a7 h7 a8 h8 hc0 hc1 x0 xs0 = k0_pay2 x0 := by
  unfold out0_B_1
  rw [View.read_writes_eq_canon _ _ _ (cover0_B_1 c i a2 h2 a3 h3 a4 h4 a5 h5 a6 h6 a7 h7 a8 h8 hc0 hc1 x0 xs0)]
  unfold kernelRun0_B
  dsimp only
  rw [View.canon_unit_zero zeroOffsets]
  simp only [View.readAt_eq_ld, h2.read_unread, View.ld_unit_zero (S := S512x1024) zeroOffsets]

/-- At a middle row band, output 2 ends at the difference with 1 of the loaded block. -/
theorem out_B_2 (hc0 : ¬cond0_0 i) (hc1 : ¬cond0_1 i) (x0 : Vec F S512x1024 .f32) (xs0 : Vec F S1x1024 .f32) :
    out0_B_2 c i a2 h2 a3 h3 a4 h4 a5 h5 a6 h6 a7 h7 a8 h8 hc0 hc1 x0 xs0 = k0_pay3 x0 := by
  unfold out0_B_2
  rw [View.read_writes_eq_canon _ _ _ (cover0_B_2 c i a2 h2 a3 h3 a4 h4 a5 h5 a6 h6 a7 h7 a8 h8 hc0 hc1 x0 xs0)]
  unfold kernelRun0_B
  dsimp only
  rw [View.canon_unit_zero zeroOffsets]
  simp only [View.readAt_eq_ld, h2.read_unread, View.ld_unit_zero (S := S512x1024) zeroOffsets]

/-- At a middle row band, output 3 ends at the product with 2 of the loaded block. -/
theorem out_B_3 (hc0 : ¬cond0_0 i) (hc1 : ¬cond0_1 i) (x0 : Vec F S512x1024 .f32) (xs0 : Vec F S1x1024 .f32) :
    out0_B_3 c i a2 h2 a3 h3 a4 h4 a5 h5 a6 h6 a7 h7 a8 h8 hc0 hc1 x0 xs0 = k0_pay4 x0 := by
  unfold out0_B_3
  rw [View.read_writes_eq_canon _ _ _ (cover0_B_3 c i a2 h2 a3 h3 a4 h4 a5 h5 a6 h6 a7 h7 a8 h8 hc0 hc1 x0 xs0)]
  unfold kernelRun0_B
  dsimp only
  rw [View.canon_unit_zero zeroOffsets]
  simp only [View.readAt_eq_ld, h2.read_unread, View.ld_unit_zero (S := S512x1024) zeroOffsets]

/-- At a middle row band, output 4 ends at the product with 1/2 of the loaded block. -/
theorem out_B_4 (hc0 : ¬cond0_0 i) (hc1 : ¬cond0_1 i) (x0 : Vec F S512x1024 .f32) (xs0 : Vec F S1x1024 .f32) :
    out0_B_4 c i a2 h2 a3 h3 a4 h4 a5 h5 a6 h6 a7 h7 a8 h8 hc0 hc1 x0 xs0 = k0_pay5 x0 := by
  unfold out0_B_4
  rw [View.read_writes_eq_canon _ _ _ (cover0_B_4 c i a2 h2 a3 h3 a4 h4 a5 h5 a6 h6 a7 h7 a8 h8 hc0 hc1 x0 xs0)]
  unfold kernelRun0_B
  dsimp only
  rw [View.canon_unit_zero zeroOffsets]
  simp only [View.readAt_eq_ld, h2.read_unread, View.ld_unit_zero (S := S512x1024) zeroOffsets]

/-- At a middle row band the accumulator ends at its payload of the block and the row it held. -/
theorem acc_B (hc0 : ¬cond0_0 i) (hc1 : ¬cond0_1 i) (x0 : Vec F S512x1024 .f32) (xs0 : Vec F S1x1024 .f32) :
    sout0_B_0 c i a2 h2 a3 h3 a4 h4 a5 h5 a6 h6 a7 h7 a8 h8 hc0 hc1 x0 xs0 = k0_pay6 x0 xs0 := by
  unfold sout0_B_0
  rw [View.read_writes_eq_canon _ _ _ (scover0_B_0 c i a2 h2 a3 h3 a4 h4 a5 h5 a6 h6 a7 h7 a8 h8 hc0 hc1 x0 xs0)]
  unfold kernelRun0_B
  dsimp only
  rw [View.canon_unit_zero zeroOffsets]
  simp only [View.readAt_eq_ld, h2.read_unread, h8.read_unread, View.ld_unit_zero (S := S512x1024) zeroOffsets,
    View.ld_unit_zero (S := S1x1024) zeroOffsets]

/-! ## At the last row band of a column tile -/

/-- At the last row band of a column tile, output 1 ends at the sum with 1 of the loaded block. -/
theorem out_C_1 (hc0 : ¬cond0_0 i) (hc1 : cond0_1 i) (x0 : Vec F S512x1024 .f32) (xs0 : Vec F S1x1024 .f32) :
    out0_C_1 c i a2 h2 a3 h3 a4 h4 a5 h5 a6 h6 a7 h7 a8 h8 hc0 hc1 x0 xs0 = k0_pay2 x0 := by
  unfold out0_C_1
  rw [View.read_writes_eq_canon _ _ _ (cover0_C_1 c i a2 h2 a3 h3 a4 h4 a5 h5 a6 h6 a7 h7 a8 h8 hc0 hc1 x0 xs0)]
  unfold kernelRun0_C
  dsimp only
  rw [View.canon_unit_zero zeroOffsets]
  simp only [View.readAt_eq_ld, h2.read_unread, View.ld_unit_zero (S := S512x1024) zeroOffsets]

/-- At the last row band of a column tile, output 2 ends at the difference with 1 of the loaded block. -/
theorem out_C_2 (hc0 : ¬cond0_0 i) (hc1 : cond0_1 i) (x0 : Vec F S512x1024 .f32) (xs0 : Vec F S1x1024 .f32) :
    out0_C_2 c i a2 h2 a3 h3 a4 h4 a5 h5 a6 h6 a7 h7 a8 h8 hc0 hc1 x0 xs0 = k0_pay3 x0 := by
  unfold out0_C_2
  rw [View.read_writes_eq_canon _ _ _ (cover0_C_2 c i a2 h2 a3 h3 a4 h4 a5 h5 a6 h6 a7 h7 a8 h8 hc0 hc1 x0 xs0)]
  unfold kernelRun0_C
  dsimp only
  rw [View.canon_unit_zero zeroOffsets]
  simp only [View.readAt_eq_ld, h2.read_unread, View.ld_unit_zero (S := S512x1024) zeroOffsets]

/-- At the last row band of a column tile, output 3 ends at the product with 2 of the loaded block. -/
theorem out_C_3 (hc0 : ¬cond0_0 i) (hc1 : cond0_1 i) (x0 : Vec F S512x1024 .f32) (xs0 : Vec F S1x1024 .f32) :
    out0_C_3 c i a2 h2 a3 h3 a4 h4 a5 h5 a6 h6 a7 h7 a8 h8 hc0 hc1 x0 xs0 = k0_pay4 x0 := by
  unfold out0_C_3
  rw [View.read_writes_eq_canon _ _ _ (cover0_C_3 c i a2 h2 a3 h3 a4 h4 a5 h5 a6 h6 a7 h7 a8 h8 hc0 hc1 x0 xs0)]
  unfold kernelRun0_C
  dsimp only
  rw [View.canon_unit_zero zeroOffsets]
  simp only [View.readAt_eq_ld, h2.read_unread, View.ld_unit_zero (S := S512x1024) zeroOffsets]

/-- At the last row band of a column tile, output 4 ends at the product with 1/2 of the loaded block. -/
theorem out_C_4 (hc0 : ¬cond0_0 i) (hc1 : cond0_1 i) (x0 : Vec F S512x1024 .f32) (xs0 : Vec F S1x1024 .f32) :
    out0_C_4 c i a2 h2 a3 h3 a4 h4 a5 h5 a6 h6 a7 h7 a8 h8 hc0 hc1 x0 xs0 = k0_pay5 x0 := by
  unfold out0_C_4
  rw [View.read_writes_eq_canon _ _ _ (cover0_C_4 c i a2 h2 a3 h3 a4 h4 a5 h5 a6 h6 a7 h7 a8 h8 hc0 hc1 x0 xs0)]
  unfold kernelRun0_C
  dsimp only
  rw [View.canon_unit_zero zeroOffsets]
  simp only [View.readAt_eq_ld, h2.read_unread, View.ld_unit_zero (S := S512x1024) zeroOffsets]

/-- At the last row band of a column tile the accumulator ends at its payload of the block and the row it held. -/
theorem acc_C (hc0 : ¬cond0_0 i) (hc1 : cond0_1 i) (x0 : Vec F S512x1024 .f32) (xs0 : Vec F S1x1024 .f32) :
    sout0_C_0 c i a2 h2 a3 h3 a4 h4 a5 h5 a6 h6 a7 h7 a8 h8 hc0 hc1 x0 xs0 = k0_pay6 x0 xs0 := by
  unfold sout0_C_0
  rw [View.read_writes_eq_canon _ _ _ (scover0_C_0 c i a2 h2 a3 h3 a4 h4 a5 h5 a6 h6 a7 h7 a8 h8 hc0 hc1 x0 xs0)]
  unfold kernelRun0_C
  dsimp only
  sl_unfold_words
  rw [View.canon_unit_zero zeroOffsets]
  simp only [View.readAt_eq_ld, h2.read_unread, h8.read_unread, View.ld_unit_zero (S := S512x1024) zeroOffsets,
    View.ld_unit_zero (S := S1x1024) zeroOffsets]

/-- At the last row band the fifth output is the accumulator's final row, read back and stored. -/
theorem out_C_5 (hc0 : ¬cond0_0 i) (hc1 : cond0_1 i) (x0 : Vec F S512x1024 .f32) (xs0 : Vec F S1x1024 .f32) :
    out0_C_5 c i a2 h2 a3 h3 a4 h4 a5 h5 a6 h6 a7 h7 a8 h8 hc0 hc1 x0 xs0 = k0_pay6 x0 xs0 := by
  unfold out0_C_5
  rw [View.read_writes_eq_canon _ _ _ (cover0_C_5 c i a2 h2 a3 h3 a4 h4 a5 h5 a6 h6 a7 h7 a8 h8 hc0 hc1 x0 xs0)]
  unfold kernelRun0_C
  dsimp only
  sl_unfold_words
  rw [View.canon_unit_zero zeroOffsets, View.readCov_unit_zero (S := S1x1024) _ zeroOffsets]
  simp only [View.readAt_eq_ld, h2.read_unread, h8.read_unread, View.ld_unit_zero (S := S512x1024) zeroOffsets,
    View.ld_unit_zero (S := S1x1024) zeroOffsets]

end Cert.KernelIdeal.Body

end
-- ==== Proof.Points.lean ====
/-
  What the staging buffers hold after each grid point, read off the point-by-point table of the frame.

  The grid is 8 column tiles by 8 row bands, visited tile by tile and, inside a tile, band by band: point t is band
  t mod 8 of tile t div 8. After every point each of the four pointwise outputs holds its payload of that point's
  block of x. The accumulator after a first band (t mod 8 = 0) is its payload of the block and the zero row; after any
  other point it is its payload of the block and of what it held after the point before. After a last band
  (t mod 8 = 7) the fifth output holds what the accumulator holds.
-/
import proofs.«163350_j73667279061090_2_alg».proof.Proof.Body

noncomputable section

open Idealize.ShloMosaic Idealize.ShloMosaic.TcCoe Idealize.SL.Sem

namespace Cert.KernelIdeal.Points

open Cert.KernelIdeal Cert.KernelIdeal.Gen Cert.KernelIdeal.Body

variable {F : FTy → Type} [FloatOps F]
variable (m : (ℓ : Loc nD τ sig) → Buf (Elt F) ℓ)

/-- What the accumulator holds after the body at position n. -/
abbrev accAfter (c : Dev nD) (n : ℕ) (h : n < cfg0.N) : Vec F S1x1024 .f32 := (outsAt0 m c n h).2.2.2.2.2

/-- After every point, output 1 holds the sum with 1 of the point's block. -/
theorem out1_at (c : Dev nD) (t : Fin cfg0.N) : (outsAt0 m c t.val t.isLt).1 = k0_pay2 (iblk m c 0 t) := by
  by_cases h0 : t.val % 8 = 0
  · have h1 : ¬t.val % 8 = 7 := by omega
    rw [outsAt0_A m c t h0 h1]
    dsimp only
    exact out_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t)
  · by_cases h1 : t.val % 8 = 7
    · rw [outsAt0_C m c t h0 h1]
      dsimp only
      exact out_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (outsAt0 m c (t.val - 1) (Nat.lt_of_le_of_lt (Nat.sub_le _ _) t.isLt)).2.2.2.2.2
    · rw [outsAt0_B m c t h0 h1]
      dsimp only
      exact out_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2.2.2.2.2

/-- After every point, output 2 holds the difference with 1 of the point's block. -/
theorem out2_at (c : Dev nD) (t : Fin cfg0.N) : (outsAt0 m c t.val t.isLt).2.1 = k0_pay3 (iblk m c 0 t) := by
  by_cases h0 : t.val % 8 = 0
  · have h1 : ¬t.val % 8 = 7 := by omega
    rw [outsAt0_A m c t h0 h1]
    dsimp only
    exact out_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t)
  · by_cases h1 : t.val % 8 = 7
    · rw [outsAt0_C m c t h0 h1]
      dsimp only
      exact out_C_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (outsAt0 m c (t.val - 1) (Nat.lt_of_le_of_lt (Nat.sub_le _ _) t.isLt)).2.2.2.2.2
    · rw [outsAt0_B m c t h0 h1]
      dsimp only
      exact out_B_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2.2.2.2.2

/-- After every point, output 3 holds the product with 2 of the point's block. -/
theorem out3_at (c : Dev nD) (t : Fin cfg0.N) : (outsAt0 m c t.val t.isLt).2.2.1 = k0_pay4 (iblk m c 0 t) := by
  by_cases h0 : t.val % 8 = 0
  · have h1 : ¬t.val % 8 = 7 := by omega
    rw [outsAt0_A m c t h0 h1]
    dsimp only
    exact out_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t)
  · by_cases h1 : t.val % 8 = 7
    · rw [outsAt0_C m c t h0 h1]
      dsimp only
      exact out_C_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (outsAt0 m c (t.val - 1) (Nat.lt_of_le_of_lt (Nat.sub_le _ _) t.isLt)).2.2.2.2.2
    · rw [outsAt0_B m c t h0 h1]
      dsimp only
      exact out_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2.2.2.2.2

/-- After every point, output 4 holds the product with 1/2 of the point's block. -/
theorem out4_at (c : Dev nD) (t : Fin cfg0.N) : (outsAt0 m c t.val t.isLt).2.2.2.1 = k0_pay5 (iblk m c 0 t) := by
  by_cases h0 : t.val % 8 = 0
  · have h1 : ¬t.val % 8 = 7 := by omega
    rw [outsAt0_A m c t h0 h1]
    dsimp only
    exact out_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t)
  · by_cases h1 : t.val % 8 = 7
    · rw [outsAt0_C m c t h0 h1]
      dsimp only
      exact out_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (outsAt0 m c (t.val - 1) (Nat.lt_of_le_of_lt (Nat.sub_le _ _) t.isLt)).2.2.2.2.2
    · rw [outsAt0_B m c t h0 h1]
      dsimp only
      exact out_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2.2.2.2.2

/-- After a first band the accumulator holds its payload of the block and the zero row. -/
theorem acc_first (c : Dev nD) (t : Fin cfg0.N) (h0 : t.val % 8 = 0) :
    accAfter m c t.val t.isLt = k0_pay6 (iblk m c 0 t) k0_pay1 := by
  have h1 : ¬t.val % 8 = 7 := by omega
  unfold accAfter
  rw [outsAt0_A m c t h0 h1]
  dsimp only
  exact acc_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t)

/-- After any other point it holds its payload of the block and of what it held after the point before. -/
theorem acc_next (c : Dev nD) (t : Fin cfg0.N) (h0 : ¬t.val % 8 = 0) :
    accAfter m c t.val t.isLt
      = k0_pay6 (iblk m c 0 t) (accAfter m c (t.val - 1) (Nat.lt_of_le_of_lt (Nat.sub_le _ _) t.isLt)) := by
  unfold accAfter
  by_cases h1 : t.val % 8 = 7
  · rw [outsAt0_C m c t h0 h1]
    dsimp only
    exact acc_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (outsAt0 m c (t.val - 1) (Nat.lt_of_le_of_lt (Nat.sub_le _ _) t.isLt)).2.2.2.2.2
  · rw [outsAt0_B m c t h0 h1]
    dsimp only
    exact acc_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2.2.2.2.2

/-- After a last band the fifth output holds what the accumulator holds. -/
theorem out5_last (c : Dev nD) (t : Fin cfg0.N) (h1 : t.val % 8 = 7) :
    (outsAt0 m c t.val t.isLt).2.2.2.2.1 = accAfter m c t.val t.isLt := by
  have h0 : ¬t.val % 8 = 0 := by omega
  rw [acc_next m c t h0, outsAt0_C m c t h0 h1]
  dsimp only
  exact out_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (outsAt0 m c (t.val - 1) (Nat.lt_of_le_of_lt (Nat.sub_le _ _) t.isLt)).2.2.2.2.2

end Cert.KernelIdeal.Points

end
-- ==== Proof.Payloads.lean ====
/-
  The body's arithmetic read at an index, on the extended reals.

  Four payloads are pointwise in the loaded block v: v + 1, v - 1, v * 2 and v * (1/2), the constant a float word.
  The accumulator's payload takes the block v and the row a the accumulator held, and returns a row: at lane l it is
  a at l plus the sum of column l of v over its 512 rows (a reduction along the rows whose starting word is the sum's
  neutral element, viewed as a one-row array). The reset payload is the row of float zeros.
-/
import proofs.«163350_j73667279061090_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Payloads

open Cert.KernelIdeal Cert.KernelIdeal.Gen Idealize.ShloMosaic Idealize.ShloMosaic.ValueIdx

/-- v + 1 at an index. -/
theorem plus_apply (v : Vec Ideal S512x1024 .f32) (y : S512x1024.Idx) :
    k0_pay2 (F := Ideal) v y = v y + Ideal.ofBits .f32 0x3F800000#32 := rfl

/-- v - 1 at an index. -/
theorem minus_apply (v : Vec Ideal S512x1024 .f32) (y : S512x1024.Idx) :
    k0_pay3 (F := Ideal) v y = v y - Ideal.ofBits .f32 0x3F800000#32 := rfl

/-- v * 2 at an index. -/
theorem double_apply (v : Vec Ideal S512x1024 .f32) (y : S512x1024.Idx) :
    k0_pay4 (F := Ideal) v y = v y * Ideal.ofBits .f32 0x40000000#32 := rfl

/-- v * (1/2) at an index. -/
theorem half_apply (v : Vec Ideal S512x1024 .f32) (y : S512x1024.Idx) :
    k0_pay5 (F := Ideal) v y = v y * Ideal.ofBits .f32 0x3F000000#32 := rfl

/-- The reset row is zero at every lane. -/
theorem reset_apply (y : S1x1024.Idx) : k0_pay1 (F := Ideal) y = 0 := by
  unfold k0_pay1
  rw [shapeCast_self]
  exact Ideal.ofBits_zero_f32

/-- A reduction of a 512 x 1024 block along its rows, from the sum's neutral word, at lane l: the sum of column l. -/
theorem rowReduce_apply (v : FVec Ideal S512x1024 .f32) (h : S512x1024.Reduces [0] S1024) (hφ : FKind.Formats .f32)
    (hacc : (0x00000000#32 : BitVec 32) = FKind.add.neutral .f32 hφ) (l : Fin 1024) :
    multiReduction .add [0] S1024 v 0x00000000#32 h hφ hacc (ix1 l) = ∑ r : Fin 512, v (ix2 r l) := by
  refine (Ideal.multiReduction_add_single v 0x00000000#32 h hφ hacc (ix1 l)).trans ?_
  show ∑ k : Fin 512, v (h.lift (ix1 l) k) = ∑ r : Fin 512, v (ix2 r l)
  refine Finset.sum_congr rfl fun r _ => congrArg v ?_
  funext a
  apply Fin.ext
  match a with
  | ⟨0, _⟩ => rfl
  | ⟨1, _⟩ => rfl

/-- A 1024-vector viewed as a one-row array, at (0, l), is the vector at l. -/
theorem asRow_apply {α : Type} (u : S1024.Idx → α) (h : S1024.ShapeCasts S1x1024) (l : Fin 1024) :
    shapeCast S1x1024 u h (ix2 (0 : Fin 1) l) = u (ix1 l) := by
  refine (shapeCast_addUnit_apply ![1024] u h (ix2 (0 : Fin 1) l)).trans (congrArg u ?_)
  funext a
  match a with
  | ⟨0, _⟩ => rfl

/-- The accumulator's payload at lane l: what it held there plus the sum of column l of the block. -/
theorem accumulate_apply (v : Vec Ideal S512x1024 .f32) (a : Vec Ideal S1x1024 .f32) (l : Fin 1024) :
    k0_pay6 (F := Ideal) v a (ix2 (0 : Fin 1) l) = a (ix2 (0 : Fin 1) l) + ∑ r : Fin 512, v (ix2 r l) := by
  unfold k0_pay6
  rw [shapeCast_self]
  show a (ix2 (0 : Fin 1) l) + shapeCast S1x1024 (multiReduction (F := Ideal) .add [0] S1024 v 0x00000000#32 _ _ _) _ (ix2 (0 : Fin 1) l) = _
  refine congrArg (a (ix2 (0 : Fin 1) l) + ·) ?_
  exact (asRow_apply _ _ l).trans (rowReduce_apply v _ _ _ l)

end Cert.KernelIdeal.Payloads

end
-- ==== Proof.Accum.lean ====
/-
  The accumulator after each grid point, on the extended reals.

  Point n works on row band n mod 8 of column tile n div 8: entry (r, l) of its block of x is x at row
  512 (n mod 8) + r and column 1024 (n div 8) + l. The accumulator's lane l after point n is the sum of the first
  512 (n mod 8 + 1) rows of that column: at a first band it is zero plus the band's column sum, and at a later band
  the sum so far plus the band's column sum, which is the sum over 512 more rows. So after a last band it is the
  column's total.
-/
import proofs.«163350_j73667279061090_2_alg».proof.Proof.Points
import proofs.«163350_j73667279061090_2_alg».proof.Proof.Payloads
import proofs.«163350_j73667279061090_2_alg».proof.Proof.Spec

noncomputable section

open scoped BigOperators

open Idealize.ShloMosaic Idealize.ShloMosaic.TcCoe Idealize.SL.Sem

namespace Cert.KernelIdeal.Accum

open Cert.KernelIdeal Cert.KernelIdeal.Gen Cert.KernelIdeal.Points Cert.KernelIdeal.Payloads Cert.Bridge
open Idealize.ShloMosaic.ValueIdx

variable (m : (ℓ : Loc nD τ sig) → Buf (Elt Ideal) ℓ)

/-- The argument array on core c. -/
abbrev argX (c : Dev nD) : FVec Ideal Big .f32 := m ((c : Thread nD τ).loc main_arg0)

/-- The block of x that point n loads. -/
abbrev blockAt (c : Dev nD) (n : ℕ) (h : n < cfg0.N) : Vec Ideal S512x1024 .f32 := iblk m c 0 ⟨n, h⟩

/-- The input window's block indices: the row band is t mod 8 and the column tile t div 8. -/
theorem band_and_tile : ∀ t : Fin cfg0.N, win0_0.index t (0 : Fin 2) = t.val % 8 ∧ win0_0.index t (1 : Fin 2) = t.val / 8 :=
  (by decide +kernel : ∀ t : Fin grid0.N, _)

/-- Entry (r, l) of point n's block is x at row 512 (n mod 8) + r and column 1024 (n div 8) + l. -/
theorem blockAt_apply (c : Dev nD) (n : ℕ) (h : n < cfg0.N) (r : Fin 512) (l : Fin 1024) (ridx : Fin 4096) (cidx : Fin 8192)
    (hr : ridx.val = 512 * (n % 8) + r.val) (hc : cidx.val = 1024 * (n / 8) + l.val) :
    blockAt m c n h (ix2 r l) = argX m c (ix2 ridx cidx) := by
  obtain ⟨e0, e1⟩ := band_and_tile ⟨n, h⟩
  unfold blockAt iblk
  rw [View.read_apply]
  show V m c main_arg0 _ = m ((c : Thread nD τ).loc main_arg0) _
  rw [V_main_arg0]
  refine congrArg (m ((c : Thread nD τ).loc main_arg0)) ?_
  funext a
  apply Fin.ext
  match a with
  | ⟨0, _⟩ =>
    show win0_0.index ⟨n, h⟩ 0 * 512 + 1 * r.val = ridx.val
    rw [e0, hr]; show n % 8 * 512 + 1 * r.val = 512 * (n % 8) + r.val; omega
  | ⟨1, _⟩ =>
    show win0_0.index ⟨n, h⟩ 1 * 1024 + 1 * l.val = cidx.val
    rw [e1, hc]; show n / 8 * 1024 + 1 * l.val = 1024 * (n / 8) + l.val; omega

/-- The column sum of point n's block at lane l is the sum of 512 rows of column cidx of x from row 512 (n mod 8) on. -/
theorem band_sum (c : Dev nD) (n : ℕ) (h : n < cfg0.N) (l : Fin 1024) (cidx : Fin 8192)
    (hc : cidx.val = 1024 * (n / 8) + l.val) :
    ∑ r : Fin 512, blockAt m c n h (ix2 r l) = ∑ r : Fin 512, entryOrZero (argX m c) cidx (512 * (n % 8) + r.val) := by
  refine Finset.sum_congr rfl fun r _ => ?_
  have hR : 512 * (n % 8) + r.val < 4096 := by have := r.isLt; omega
  rw [blockAt_apply m c n h r l ⟨512 * (n % 8) + r.val, hR⟩ cidx rfl hc]
  unfold entryOrZero
  rw [dif_pos hR]

/-- After point n, lane l of the accumulator is the sum of the first 512 (n mod 8 + 1) rows of its column of x. -/
theorem acc_eq (c : Dev nD) : ∀ (n : ℕ) (h : n < cfg0.N) (l : Fin 1024) (cidx : Fin 8192),
    cidx.val = 1024 * (n / 8) + l.val →
    accAfter m c n h (ix2 (0 : Fin 1) l) = firstRows (argX m c) cidx (512 * (n % 8 + 1)) := by
  intro n
  induction n with
  | zero =>
    intro h l cidx hc
    refine (congrFun (acc_first m c ⟨0, h⟩ rfl) (ix2 (0 : Fin 1) l)).trans ?_
    refine (accumulate_apply (blockAt m c 0 h) (k0_pay1 (F := Ideal)) l).trans ?_
    rw [reset_apply, zero_add, band_sum m c 0 h l cidx hc]
    show _ = firstRows (argX m c) cidx (0 + 512)
    rw [firstRows_add, firstRows_zero, zero_add]
  | succ n ih =>
    intro h l cidx hc
    by_cases h0 : (n + 1) % 8 = 0
    · refine (congrFun (acc_first m c ⟨n + 1, h⟩ h0) (ix2 (0 : Fin 1) l)).trans ?_
      refine (accumulate_apply (blockAt m c (n + 1) h) (k0_pay1 (F := Ideal)) l).trans ?_
      rw [reset_apply, zero_add, band_sum m c (n + 1) h l cidx hc]
      have e : 512 * ((n + 1) % 8 + 1) = 512 * ((n + 1) % 8) + 512 := by omega
      have z : 512 * ((n + 1) % 8) = 0 := by omega
      rw [e, firstRows_add, z, firstRows_zero, zero_add]
    · refine (congrFun (acc_next m c ⟨n + 1, h⟩ h0) (ix2 (0 : Fin 1) l)).trans ?_
      refine (accumulate_apply (blockAt m c (n + 1) h) (accAfter m c n (Nat.lt_of_succ_lt h)) l).trans ?_
      rw [ih (Nat.lt_of_succ_lt h) l cidx (by omega), band_sum m c (n + 1) h l cidx hc]
      have e : 512 * ((n + 1) % 8 + 1) = 512 * (n % 8 + 1) + 512 := by omega
      have e2 : 512 * ((n + 1) % 8) = 512 * (n % 8 + 1) := by omega
      rw [e, firstRows_add, e2]

/-- So after the last band of column tile q, lane l of the accumulator is the total of column 1024 q + l of x. -/
theorem acc_last (c : Dev nD) (n : ℕ) (h : n < cfg0.N) (h7 : n % 8 = 7) (l : Fin 1024) (cidx : Fin 8192)
    (hc : cidx.val = 1024 * (n / 8) + l.val) :
    accAfter m c n h (ix2 (0 : Fin 1) l) = colTotal (argX m c) cidx := by
  rw [acc_eq m c n h l cidx hc, h7]
  exact firstRows_all (argX m c) cidx

end Cert.KernelIdeal.Accum

end
-- ==== Proof.Blocks.lean ====
/-
  From what each grid point writes back to the whole result arrays.

  Point t (row band t mod 8 of column tile t div 8) writes back, for each pointwise output, the 512 x 1024 block at
  block row t mod 8 and block column t div 8: the same place its input block came from, so the block written is that
  block of the pointwise function of the whole argument. Every index (R, C) of a 4096 x 8192 array lies in the block
  of the point with band R div 512 and tile C div 1024, so each pointwise output ends at its function of x.
  The fifth output's block (0, t div 8), of one row and 1024 lanes, is written back after a last band only, holding
  the column totals of the tile's 1024 columns; column C lies in the block of tile C div 1024, so the fifth output ends
  at the row of column totals.
-/
import proofs.«163350_j73667279061090_2_alg».proof.Proof.Accum

noncomputable section

open scoped BigOperators

open Idealize.ShloMosaic Idealize.ShloMosaic.TcCoe Idealize.SL.Sem
open Idealize.ShloMosaic.Pipeline (Dat)

namespace Cert.KernelIdeal.Blocks

open Cert.KernelIdeal Cert.KernelIdeal.Gen Cert.KernelIdeal.Points Cert.KernelIdeal.Payloads Cert.KernelIdeal.Accum Cert.Bridge
open Idealize.ShloMosaic.ValueIdx

variable (m : (ℓ : Loc nD τ sig) → Buf (Elt Ideal) ℓ)

/-- The grid has 64 points. -/
theorem points64 : cfg0.N = 64 := N_0

/-- The output windows' block indices: for the four pointwise outputs the row band t mod 8 and the column tile
    t div 8, for the fifth output row 0 and the column tile. -/
theorem out_band_and_tile : ∀ t : Fin cfg0.N,
    win0_1.index t (0 : Fin 2) = t.val % 8 ∧ win0_1.index t (1 : Fin 2) = t.val / 8
    ∧ win0_2.index t (0 : Fin 2) = t.val % 8 ∧ win0_2.index t (1 : Fin 2) = t.val / 8
    ∧ win0_3.index t (0 : Fin 2) = t.val % 8 ∧ win0_3.index t (1 : Fin 2) = t.val / 8
    ∧ win0_4.index t (0 : Fin 2) = t.val % 8 ∧ win0_4.index t (1 : Fin 2) = t.val / 8
    ∧ win0_5.index t (0 : Fin 2) = 0 ∧ win0_5.index t (1 : Fin 2) = t.val / 8 :=
  (by decide +kernel : ∀ t : Fin grid0.N, _)

/-- An entry of point t's input block is x at the index 512 (t mod 8) rows and 1024 (t div 8) columns further on. -/
theorem block_entry (c : Dev nD) (t : Fin cfg0.N) (y : S512x1024.Idx) (i : Big.Idx)
    (h0 : (i 0).val = 512 * (t.val % 8) + (y 0).val) (h1 : (i 1).val = 1024 * (t.val / 8) + (y 1).val) :
    blockAt m c t.val t.isLt y = argX m c i := by
  obtain ⟨r, l, rfl⟩ : ∃ (r : Fin 512) (l : Fin 1024), y = ix2 r l := ⟨y 0, y 1, eq_ix2 y⟩
  obtain ⟨ridx, cidx, rfl⟩ : ∃ (ridx : Fin 4096) (cidx : Fin 8192), i = ix2 ridx cidx := ⟨i 0, i 1, eq_ix2 i⟩
  exact blockAt_apply m c t.val t.isLt r l ridx cidx h0 h1

/-! ## Output 1: the sum with 1 -/

/-- What point t writes back to output 1 is block t of the sum with 1 of x. -/
theorem flushed1_eq (c : Dev nD) (t : Fin cfg0.N) :
    (dats m 0 c).flushed 1 t = ((cfg0.win 1).blk t).view.read (Elt Ideal) (plusOne (argX m c)) := by
  show (cfg0.win 1).cut (grid0.coords t) ((dats m 0 c).after 1 t) = _
  rw [after0_1, out1_at m c t]
  obtain ⟨e10, e11, e20, e21, e30, e31, e40, e41, e50, e51⟩ := out_band_and_tile t
  funext y
  show k0_pay2 (blockAt m c t.val t.isLt) y = plusOne (argX m c) (((cfg0.win 1).blk t).view.emb y)
  refine (plus_apply (blockAt m c t.val t.isLt) y).trans ?_
  show _ = (· + Ideal.ofBits .f32 0x3F800000#32) (argX m c (((cfg0.win 1).blk t).view.emb y))
  refine congrArg (· + Ideal.ofBits .f32 0x3F800000#32) ?_
  refine block_entry m c t y _ ?_ ?_
  · show win0_1.index t (0 : Fin 2) * 512 + 1 * (y 0).val = 512 * (t.val % 8) + (y 0).val
    rw [e10]; omega
  · show win0_1.index t (1 : Fin 2) * 1024 + 1 * (y 1).val = 1024 * (t.val / 8) + (y 1).val
    rw [e11]; omega

/-- An index lies in point t's block of output 1 iff each coordinate lies in the block's range on its axis. -/
theorem mem_blk1 (t : Fin cfg0.N) (i : S4096x8192.Idx) :
    i ∈ ((cfg0.win 1).blk t).view.set ↔ ∀ a : Fin 2, win0_1.index t a * S512x1024.size a ≤ (i a).val ∧ (i a).val < win0_1.index t a * S512x1024.size a + S512x1024.size a := by
  show i ∈ ((View.whole main_v0_0).slice (win0_1.rect t)).set ↔ _
  rw [View.set_slice_whole, Rect.mem_set_unit]
  exact Iff.rfl

/-- Every index of output 1 lies in the block of the point with its row band and column tile. -/
theorem cover1 (i : S4096x8192.Idx) :
    ∃ t : Fin cfg0.N, (cfg0.win 1).flush t = true ∧ i ∈ ((cfg0.win 1).blk t).view.set := by
  have hi0 : (i 0).val < 4096 := (i 0).isLt
  have hi1 : (i 1).val < 8192 := (i 1).isLt
  let t : Fin cfg0.N := ⟨8 * ((i 1).val / 1024) + (i 0).val / 512, by rw [points64]; omega⟩
  have ht : t.val = 8 * ((i 1).val / 1024) + (i 0).val / 512 := rfl
  obtain ⟨e10, e11, e20, e21, e30, e31, e40, e41, e50, e51⟩ := out_band_and_tile t
  refine ⟨t, flush0_1 t, ?_⟩
  rw [mem_blk1]
  intro a
  match a with
  | ⟨0, _⟩ =>
    show win0_1.index t (0 : Fin 2) * 512 ≤ (i 0).val ∧ (i 0).val < win0_1.index t (0 : Fin 2) * 512 + 512
    rw [e10, ht]; omega
  | ⟨1, _⟩ =>
    show win0_1.index t (1 : Fin 2) * 1024 ≤ (i 1).val ∧ (i 1).val < win0_1.index t (1 : Fin 2) * 1024 + 1024
    rw [e11, ht]; omega

/-- So output 1 ends at the sum with 1 of x. -/
theorem final1 (c : Dev nD) : (dats m 0 c).arrAt 1 cfg0.N = plusOne (argX m c) :=
  (dats m 0 c).arrAt_eq_of_cover 1 (plusOne (argX m c)) (fun t _ => flushed1_eq m c t) cover1

/-! ## Output 2: the difference with 1 -/

/-- What point t writes back to output 2 is block t of the difference with 1 of x. -/
theorem flushed2_eq (c : Dev nD) (t : Fin cfg0.N) :
    (dats m 0 c).flushed 2 t = ((cfg0.win 2).blk t).view.read (Elt Ideal) (minusOne (argX m c)) := by
  show (cfg0.win 2).cut (grid0.coords t) ((dats m 0 c).after 2 t) = _
  rw [after0_2, out2_at m c t]
  obtain ⟨e10, e11, e20, e21, e30, e31, e40, e41, e50, e51⟩ := out_band_and_tile t
  funext y
  show k0_pay3 (blockAt m c t.val t.isLt) y = minusOne (argX m c) (((cfg0.win 2).blk t).view.emb y)
  refine (minus_apply (blockAt m c t.val t.isLt) y).trans ?_
  show _ = (· - Ideal.ofBits .f32 0x3F800000#32) (argX m c (((cfg0.win 2).blk t).view.emb y))
  refine congrArg (· - Ideal.ofBits .f32 0x3F800000#32) ?_
  refine block_entry m c t y _ ?_ ?_
  · show win0_2.index t (0 : Fin 2) * 512 + 1 * (y 0).val = 512 * (t.val % 8) + (y 0).val
    rw [e20]; omega
  · show win0_2.index t (1 : Fin 2) * 1024 + 1 * (y 1).val = 1024 * (t.val / 8) + (y 1).val
    rw [e21]; omega

/-- An index lies in point t's block of output 2 iff each coordinate lies in the block's range on its axis. -/
theorem mem_blk2 (t : Fin cfg0.N) (i : S4096x8192.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v0_1).slice (win0_2.rect t)).set ↔ _
  rw [View.set_slice_whole, Rect.mem_set_unit]
  exact Iff.rfl

/-- Every index of output 2 lies in the block of the point with its row band and column tile. -/
theorem cover2 (i : S4096x8192.Idx) :
    ∃ t : Fin cfg0.N, (cfg0.win 2).flush t = true ∧ i ∈ ((cfg0.win 2).blk t).view.set := by
  have hi0 : (i 0).val < 4096 := (i 0).isLt
  have hi1 : (i 1).val < 8192 := (i 1).isLt
  let t : Fin cfg0.N := ⟨8 * ((i 1).val / 1024) + (i 0).val / 512, by rw [points64]; omega⟩
  have ht : t.val = 8 * ((i 1).val / 1024) + (i 0).val / 512 := rfl
  obtain ⟨e10, e11, e20, e21, e30, e31, e40, e41, e50, e51⟩ := out_band_and_tile t
  refine ⟨t, flush0_2 t, ?_⟩
  rw [mem_blk2]
  intro a
  match a with
  | ⟨0, _⟩ =>
    show win0_2.index t (0 : Fin 2) * 512 ≤ (i 0).val ∧ (i 0).val < win0_2.index t (0 : Fin 2) * 512 + 512
    rw [e20, ht]; omega
  | ⟨1, _⟩ =>
    show win0_2.index t (1 : Fin 2) * 1024 ≤ (i 1).val ∧ (i 1).val < win0_2.index t (1 : Fin 2) * 1024 + 1024
    rw [e21, ht]; omega

/-- So output 2 ends at the difference with 1 of x. -/
theorem final2 (c : Dev nD) : (dats m 0 c).arrAt 2 cfg0.N = minusOne (argX m c) :=
  (dats m 0 c).arrAt_eq_of_cover 2 (minusOne (argX m c)) (fun t _ => flushed2_eq m c t) cover2

/-! ## Output 3: the product with 2 -/

/-- What point t writes back to output 3 is block t of the product with 2 of x. -/
theorem flushed3_eq (c : Dev nD) (t : Fin cfg0.N) :
    (dats m 0 c).flushed 3 t = ((cfg0.win 3).blk t).view.read (Elt Ideal) (doubled (argX m c)) := by
  show (cfg0.win 3).cut (grid0.coords t) ((dats m 0 c).after 3 t) = _
  rw [after0_3, out3_at m c t]
  obtain ⟨e10, e11, e20, e21, e30, e31, e40, e41, e50, e51⟩ := out_band_and_tile t
  funext y
  show k0_pay4 (blockAt m c t.val t.isLt) y = doubled (argX m c) (((cfg0.win 3).blk t).view.emb y)
  refine (double_apply (blockAt m c t.val t.isLt) y).trans ?_
  show _ = (· * Ideal.ofBits .f32 0x40000000#32) (argX m c (((cfg0.win 3).blk t).view.emb y))
  refine congrArg (· * Ideal.ofBits .f32 0x40000000#32) ?_
  refine block_entry m c t y _ ?_ ?_
  · show win0_3.index t (0 : Fin 2) * 512 + 1 * (y 0).val = 512 * (t.val % 8) + (y 0).val
    rw [e30]; omega
  · show win0_3.index t (1 : Fin 2) * 1024 + 1 * (y 1).val = 1024 * (t.val / 8) + (y 1).val
    rw [e31]; omega

/-- An index lies in point t's block of output 3 iff each coordinate lies in the block's range on its axis. -/
theorem mem_blk3 (t : Fin cfg0.N) (i : S4096x8192.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v0_2).slice (win0_3.rect t)).set ↔ _
  rw [View.set_slice_whole, Rect.mem_set_unit]
  exact Iff.rfl

/-- Every index of output 3 lies in the block of the point with its row band and column tile. -/
theorem cover3 (i : S4096x8192.Idx) :
    ∃ t : Fin cfg0.N, (cfg0.win 3).flush t = true ∧ i ∈ ((cfg0.win 3).blk t).view.set := by
  have hi0 : (i 0).val < 4096 := (i 0).isLt
  have hi1 : (i 1).val < 8192 := (i 1).isLt
  let t : Fin cfg0.N := ⟨8 * ((i 1).val / 1024) + (i 0).val / 512, by rw [points64]; omega⟩
  have ht : t.val = 8 * ((i 1).val / 1024) + (i 0).val / 512 := rfl
  obtain ⟨e10, e11, e20, e21, e30, e31, e40, e41, e50, e51⟩ := out_band_and_tile t
  refine ⟨t, flush0_3 t, ?_⟩
  rw [mem_blk3]
  intro a
  match a with
  | ⟨0, _⟩ =>
    show win0_3.index t (0 : Fin 2) * 512 ≤ (i 0).val ∧ (i 0).val < win0_3.index t (0 : Fin 2) * 512 + 512
    rw [e30, ht]; omega
  | ⟨1, _⟩ =>
    show win0_3.index t (1 : Fin 2) * 1024 ≤ (i 1).val ∧ (i 1).val < win0_3.index t (1 : Fin 2) * 1024 + 1024
    rw [e31, ht]; omega

/-- So output 3 ends at the product with 2 of x. -/
theorem final3 (c : Dev nD) : (dats m 0 c).arrAt 3 cfg0.N = doubled (argX m c) :=
  (dats m 0 c).arrAt_eq_of_cover 3 (doubled (argX m c)) (fun t _ => flushed3_eq m c t) cover3

/-! ## Output 4: the product with 1/2 -/

/-- What point t writes back to output 4 is block t of the product with 1/2 of x. -/
theorem flushed4_eq (c : Dev nD) (t : Fin cfg0.N) :
    (dats m 0 c).flushed 4 t = ((cfg0.win 4).blk t).view.read (Elt Ideal) (halved (argX m c)) := by
  show (cfg0.win 4).cut (grid0.coords t) ((dats m 0 c).after 4 t) = _
  rw [after0_4, out4_at m c t]
  obtain ⟨e10, e11, e20, e21, e30, e31, e40, e41, e50, e51⟩ := out_band_and_tile t
  funext y
  show k0_pay5 (blockAt m c t.val t.isLt) y = halved (argX m c) (((cfg0.win 4).blk t).view.emb y)
  refine (half_apply (blockAt m c t.val t.isLt) y).trans ?_
  show _ = (· * Ideal.ofBits .f32 0x3F000000#32) (argX m c (((cfg0.win 4).blk t).view.emb y))
  refine congrArg (· * Ideal.ofBits .f32 0x3F000000#32) ?_
  refine block_entry m c t y _ ?_ ?_
  · show win0_4.index t (0 : Fin 2) * 512 + 1 * (y 0).val = 512 * (t.val % 8) + (y 0).val
    rw [e40]; omega
  · show win0_4.index t (1 : Fin 2) * 1024 + 1 * (y 1).val = 1024 * (t.val / 8) + (y 1).val
    rw [e41]; omega

/-- An index lies in point t's block of output 4 iff each coordinate lies in the block's range on its axis. -/
theorem mem_blk4 (t : Fin cfg0.N) (i : S4096x8192.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v0_3).slice (win0_4.rect t)).set ↔ _
  rw [View.set_slice_whole, Rect.mem_set_unit]
  exact Iff.rfl

/-- Every index of output 4 lies in the block of the point with its row band and column tile. -/
theorem cover4 (i : S4096x8192.Idx) :
    ∃ t : Fin cfg0.N, (cfg0.win 4).flush t = true ∧ i ∈ ((cfg0.win 4).blk t).view.set := by
  have hi0 : (i 0).val < 4096 := (i 0).isLt
  have hi1 : (i 1).val < 8192 := (i 1).isLt
  let t : Fin cfg0.N := ⟨8 * ((i 1).val / 1024) + (i 0).val / 512, by rw [points64]; omega⟩
  have ht : t.val = 8 * ((i 1).val / 1024) + (i 0).val / 512 := rfl
  obtain ⟨e10, e11, e20, e21, e30, e31, e40, e41, e50, e51⟩ := out_band_and_tile t
  refine ⟨t, flush0_4 t, ?_⟩
  rw [mem_blk4]
  intro a
  match a with
  | ⟨0, _⟩ =>
    show win0_4.index t (0 : Fin 2) * 512 ≤ (i 0).val ∧ (i 0).val < win0_4.index t (0 : Fin 2) * 512 + 512
    rw [e40, ht]; omega
  | ⟨1, _⟩ =>
    show win0_4.index t (1 : Fin 2) * 1024 ≤ (i 1).val ∧ (i 1).val < win0_4.index t (1 : Fin 2) * 1024 + 1024
    rw [e41, ht]; omega

/-- So output 4 ends at the product with 1/2 of x. -/
theorem final4 (c : Dev nD) : (dats m 0 c).arrAt 4 cfg0.N = halved (argX m c) :=
  (dats m 0 c).arrAt_eq_of_cover 4 (halved (argX m c)) (fun t _ => flushed4_eq m c t) cover4

/-! ## Output 5: the row of column totals -/

/-- What a last band's point writes back to output 5 is its block of the row of column totals of x. -/
theorem flushed5_eq (c : Dev nD) (t : Fin cfg0.N) (hf : (cfg0.win 5).flush t = true) :
    (dats m 0 c).flushed 5 t = ((cfg0.win 5).blk t).view.read (Elt Ideal) (colTotals (argX m c)) := by
  have h7 : t.val % 8 = 7 := (flush0_5 t).mp hf
  show (cfg0.win 5).cut (grid0.coords t) ((dats m 0 c).after 5 t) = _
  rw [after0_5, out5_last m c t h7]
  obtain ⟨e10, e11, e20, e21, e30, e31, e40, e41, e50, e51⟩ := out_band_and_tile t
  funext y
  obtain ⟨z, l, rfl⟩ : ∃ (z : Fin 1) (l : Fin 1024), y = ix2 z l := ⟨y 0, y 1, eq_ix2 y⟩
  obtain rfl : z = 0 := Subsingleton.elim _ _
  show accAfter m c t.val t.isLt (ix2 (0 : Fin 1) l)
    = colTotal (argX m c) ((((cfg0.win 5).blk t).view.emb (ix2 (0 : Fin 1) l)) 1)
  refine acc_last m c t.val t.isLt h7 l _ ?_
  show win0_5.index t (1 : Fin 2) * 1024 + 1 * l.val = 1024 * (t.val / 8) + l.val
  rw [e51]; omega

/-- An index lies in point t's block of output 5 iff each coordinate lies in the block's range on its axis. -/
theorem mem_blk5 (t : Fin cfg0.N) (i : S1x8192.Idx) :
    i ∈ ((cfg0.win 5).blk t).view.set ↔ ∀ a : Fin 2, win0_5.index t a * S1x1024.size a ≤ (i a).val ∧ (i a).val < win0_5.index t a * S1x1024.size a + S1x1024.size a := by
  show i ∈ ((View.whole main_v0_4).slice (win0_5.rect t)).set ↔ _
  rw [View.set_slice_whole, Rect.mem_set_unit]
  exact Iff.rfl

/-- Every column lies in the block written back after the last band of its column tile. -/
theorem cover5 (i : S1x8192.Idx) :
    ∃ t : Fin cfg0.N, (cfg0.win 5).flush t = true ∧ i ∈ ((cfg0.win 5).blk t).view.set := by
  have hi0 : (i 0).val < 1 := (i 0).isLt
  have hi1 : (i 1).val < 8192 := (i 1).isLt
  let t : Fin cfg0.N := ⟨8 * ((i 1).val / 1024) + 7, by rw [points64]; omega⟩
  have ht : t.val = 8 * ((i 1).val / 1024) + 7 := rfl
  obtain ⟨e10, e11, e20, e21, e30, e31, e40, e41, e50, e51⟩ := out_band_and_tile t
  refine ⟨t, (flush0_5 t).mpr (by rw [ht]; omega), ?_⟩
  rw [mem_blk5]
  intro a
  match a with
  | ⟨0, _⟩ =>
    show win0_5.index t (0 : Fin 2) * 1 ≤ (i 0).val ∧ (i 0).val < win0_5.index t (0 : Fin 2) * 1 + 1
    rw [e50]; omega
  | ⟨1, _⟩ =>
    show win0_5.index t (1 : Fin 2) * 1024 ≤ (i 1).val ∧ (i 1).val < win0_5.index t (1 : Fin 2) * 1024 + 1024
    rw [e51, ht]; omega

/-- So output 5 ends at the row of column totals of x. -/
theorem final5 (c : Dev nD) : (dats m 0 c).arrAt 5 cfg0.N = colTotals (argX m c) :=
  (dats m 0 c).arrAt_eq_of_cover 5 (colTotals (argX m c)) (flushed5_eq m c) cover5

end Cert.KernelIdeal.Blocks

end
-- ==== Proof.KernelValue.lean ====
/-
  The idealized kernel's run, read: after every weakly fair execution the four pointwise results hold x + 1, x - 1,
  x * 2 and x * (1/2), the scalar result holds the sum of every entry of x from the float zero, and x is unchanged.

  The scalar is computed after the region by the host: the sum over both axes, from the float zero, of the region's
  fifth output. That output ends at the row of column totals of x, and the sum of the column totals is the sum of
  every entry.
-/
import proofs.«163350_j73667279061090_2_alg».proof.Proof.Blocks
import Idealize.ShloMosaic.Lib.StableHlo.Run

noncomputable section

open scoped BigOperators

open Idealize.ShloMosaic Idealize.ShloMosaic.TcCoe Idealize.SL.Sem Idealize.ShloMosaic.StableHlo
open Idealize.ShloMosaic.Pipeline (Dat)

namespace Cert.KernelIdeal.KernelValue

open Cert.KernelIdeal Cert.KernelIdeal.Gen Cert.KernelIdeal.Accum Cert.KernelIdeal.Blocks Cert.Bridge
open Idealize.ShloMosaic.ValueIdx

variable (m : (ℓ : Loc nD τ sig) → Buf (Elt Ideal) ℓ) (ρ : Dev nD → PrngReg)

/-- The host's sum over both axes of a one-row array r, from the float zero, is that zero plus the sum of r. -/
theorem sumOfRow (r : FVec Ideal Row .f32) (i : S_.Idx) :
    Host.reduceAdd (F := Ideal) r (constant (F := Ideal) S_ .f32 0x00000000#32) reducesTo_S1x8192_S_d0_1 h_S_ i
      = Ideal.ofBits .f32 0x00000000#32 + ∑ k : Row.Idx, r k := by
  simp only [Host.reduceAdd, Ideal.hostReduceAdd_def]
  exact Ideal.hostReduceAdd_total reducesTo_S1x8192_S_d0_1 (fun b => b.elim0) r _ i

/-- The scalar the host computes after the region is the sum of every entry of x from the float zero. -/
theorem tail_eq (c : Dev nD) :
    Pipeline.afterTail₀ cfgs (dats m) 0 (V0 m) [hostOps1] c main_v1 = total (argX m c) := by
  unfold Pipeline.afterTail₀
  show StableHlo.after hostOps1 _ (Proc.devRef .tc main_v1) = _
  after_results
  have harr : Pipeline.withArrays (cfgs 0).spec c (V0 m c) (fun w => (dats m 0 c).arrAt w (cfgs 0).N)
      (Proc.devRef .tc main_v0_4) = colTotals (argX m c) :=
    (Pipeline.withArrays_arr spec0 launch0.win.arr_inj c _ _ 5).trans (final5 m c)
  rw [harr]
  funext i
  exact (sumOfRow (colTotals (argX m c)) i).trans (zero_add_sum_colTotals (argX m c))

/-- The run, read: each result at its function of x, and x unchanged. -/
theorem run : θ_run defs (onTc (τ := τ) (main (F := Ideal))) ⟨m, fun _ => 0, ρ⟩ fun r => ∀ c : Dev nD,
      r.2.mem ((c : Thread nD τ).loc main_v0_0) = plusOne (argX m c)
      ∧ r.2.mem ((c : Thread nD τ).loc main_v0_1) = minusOne (argX m c)
      ∧ r.2.mem ((c : Thread nD τ).loc main_v0_2) = doubled (argX m c)
      ∧ r.2.mem ((c : Thread nD τ).loc main_v0_3) = halved (argX m c)
      ∧ r.2.mem ((c : Thread nD τ).loc main_v1) = total (argX m c)
      ∧ r.2.mem ((c : Thread nD τ).loc main_arg0) = m ((c : Thread nD τ).loc main_arg0) :=
  (θ_run defs _ _).mono (fun r h c => ⟨((h c).1 1).trans (final1 m c), ((h c).1 2).trans (final2 m c),
      ((h c).1 3).trans (final3 m c), ((h c).1 4).trans (final4 m c),
      ((h c).2 main_v1 (by decide)).trans (tail_eq m c),
      ((h c).1 0).trans ((dats m 0 c).arrAt_in 0 rfl _)⟩)
    (run_main m ρ)

end Cert.KernelIdeal.KernelValue

end
-- ==== Proof.lean ====
/-
  The five claims about one kernel and its reference.

  The kernel reads a 4096 x 8192 array x once, in an 8 x 8 grid of 512 x 1024 blocks, and produces x + 1, x - 1, x * 2,
  x * 0.5 and the sum of every entry of x: each grid point stores the four pointwise blocks and adds the block's column
  sums into a one-row accumulator that is reset at the first row band of a column tile and copied out after the last;
  the host then sums the 8192 column totals. The reference computes x + 1, x - 1, x * 2, x / 2 and the sum of x in one
  sweep.

  Over the extended reals the two agree on every input. The first three results are the same operation with the same
  float word. The quotient by 2 is the product with 1/2 on every extended real. Adding x up column by column, each
  column band by band, and then adding the column totals, gives the sum over all index pairs, because addition of
  extended reals is commutative and associative; no entry need be finite, so the precondition is not used.

  The three frame claims are the generated frame runs (for the reference, its generated run with the results dropped);
  the idealization rewrote nothing, so the second program is the first read on the extended reals.
-/
import proofs.«163350_j73667279061090_2_alg».proof.Defs
import proofs.«163350_j73667279061090_2_alg».proof.Proof.Gen.Kernel
import proofs.«163350_j73667279061090_2_alg».proof.Proof.Gen.Kernel.Frame
import proofs.«163350_j73667279061090_2_alg».proof.Proof.Gen.KernelIdeal
import proofs.«163350_j73667279061090_2_alg».proof.Proof.Gen.KernelIdeal.Frame
import proofs.«163350_j73667279061090_2_alg».proof.Proof.Gen.ReferenceIdeal
import proofs.«163350_j73667279061090_2_alg».proof.Proof.Gen.Pre_finite_inputs
import proofs.«163350_j73667279061090_2_alg».proof.Proof.Gen.ReferenceIdeal.Run
import proofs.«163350_j73667279061090_2_alg».proof.Proof.Gen.ReferenceIdeal.Read
import proofs.«163350_j73667279061090_2_alg».proof.Proof.RefValue
import proofs.«163350_j73667279061090_2_alg».proof.Proof.KernelValue

noncomputable section

namespace Cert.Proof

open Idealize.ShloMosaic Idealize.ShloMosaic.TcCoe Idealize.SL.Sem
open Cert.Bridge Cert.KernelIdeal.Accum

/-- The word-level kernel runs and leaves x unchanged. -/
theorem frame_kernel : Cert.frame_Kernel := fun m ρ _ => Cert.Kernel.Gen.frame m ρ

/-- So does the kernel read on the extended reals. -/
theorem frame_ideal : Cert.frame_KernelIdeal := fun m ρ _ => Cert.KernelIdeal.Gen.frame m ρ

/-- The reference runs and leaves x unchanged: its run with the five results dropped. -/
theorem frame_reference : Cert.frame_ReferenceIdeal := fun m ρ _ =>
  (θ_run Cert.ReferenceIdeal.defs _ _).mono (fun _ h c => (h c).2.2.2.2.2) (Cert.ReferenceIdeal.Value.run (F := Ideal) m ρ)

/-- The idealization rewrote nothing. -/
theorem preserves : Cert.preserves_Kernel_KernelIdeal := trivial

/-- On the extended reals the kernel's five results and the reference's are the same five functions of x. -/
theorem algebraic : Cert.algebraic_KernelIdeal_ReferenceIdeal := by
  intro m ρ m' ρ' _ hagree
  refine ⟨_, _, _, _, _, Cert.KernelIdeal.KernelValue.run m ρ, ?_⟩
  refine (θ_run Cert.ReferenceIdeal.defs _ _).mono (fun _ h c => ?_) (Cert.ReferenceIdeal.Value.run (F := Ideal) m' ρ')
  obtain ⟨h1, h3, h5, h7, h8, h0⟩ := h c
  refine ⟨h1.trans ?_, h3.trans ?_, h5.trans ?_, h7.trans ?_, h8.trans ?_, h0⟩
  · rw [Cert.ReferenceIdeal.Read.val_main_v1_eq, Cert.ReferenceIdeal.RefValue.plusOne_eq, hagree c]
  · rw [Cert.ReferenceIdeal.Read.val_main_v3_eq, Cert.ReferenceIdeal.RefValue.minusOne_eq, hagree c]
  · rw [Cert.ReferenceIdeal.Read.val_main_v5_eq, Cert.ReferenceIdeal.RefValue.doubled_eq, hagree c]
  · rw [Cert.ReferenceIdeal.Read.val_main_v7_eq, Cert.ReferenceIdeal.RefValue.halved_eq, hagree c]
  · rw [Cert.ReferenceIdeal.Read.val_main_v8_eq, Cert.ReferenceIdeal.RefValue.total_eq, hagree c]

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
